-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S1x1 : Shape := ⟨2, ![1, 1]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S16777216x2 .f32) (main_arg1 : FVec F S1x1 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  main_v8
-- ==== Kernel.lean ====
abbrev S16777216x2 : Shape := ⟨2, ![16777216, 2]⟩
abbrev S1x1 : Shape := ⟨2, ![1, 1]⟩
abbrev S_ : Shape := ⟨0, ![]⟩
abbrev S1x2 : Shape := ⟨2, ![1, 2]⟩
abbrev S16777216x1 : Shape := ⟨2, ![16777216, 1]⟩
abbrev S8192x2 : Shape := ⟨2, ![8192, 2]⟩
abbrev S8192x1 : Shape := ⟨2, ![8192, 1]⟩
abbrev S8192 : Shape := ⟨1, ![8192]⟩

abbrev nBuf : Space → Nat
  | .hbm => 7
  | .vmem => 5
  | .smem => 0
  | _ => 0

abbrev bufTy : (tb : Table) → Fin (tcTables nBuf tb) → BufTy
  | .hbm, ⟨0, _⟩ => ⟨S16777216x2, .f32⟩
  | .hbm, ⟨1, _⟩ => ⟨S1x1, .f32⟩
  | .hbm, ⟨2, _⟩ => ⟨S_, .f32⟩
  | .hbm, ⟨3, _⟩ => ⟨S1x1, .f32⟩
  | .hbm, ⟨4, _⟩ => ⟨S1x1, .f32⟩
  | .hbm, ⟨5, _⟩ => ⟨S1x2, .f32⟩
  | .hbm, ⟨6, _⟩ => ⟨S16777216x1, .f32⟩
  | .local _ .vmem, ⟨0, _⟩ => ⟨S8192x2, .f32⟩
  | .local _ .vmem, ⟨1, _⟩ => ⟨S8192x2, .f32⟩
  | .local _ .vmem, ⟨2, _⟩ => ⟨S1x2, .f32⟩
  | .local _ .vmem, ⟨3, _⟩ => ⟨S8192x1, .f32⟩
  | .local _ .vmem, ⟨4, _⟩ => ⟨S8192x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1x1 : S_.BroadcastsInDim S1x1 (![] : Fin 0 → Fin S1x1.rank)
  concatenates_S1x1_S1x1_S1x2_d1 : Shape.Concatenates [S1x1, S1x1] S1x2 1
  inb_S8192x2_S8192x2_0_0 : ∀ a, (![0, 0] : Fin 2 → Nat) a + S8192x2.size a ≤ S8192x2.size a
  h_S8192x2 : 0 < S8192x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  reduces_S8192x2_S8192 : S8192x2.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2.size a ≤ S1x2.size a
  hwx0_1 : ∀ i : grid0.Coords, EltTy.bits .f32 = 32 ∨ (Rect.block (s := S1x2) S1x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S16777216x1.size a
  hwx0_2 : ∀ i : grid0.Coords, EltTy.bits .f32 = 32 ∨ (Rect.block (s := S16777216x1) S8192x1.size (cc0_transform_2 i) (hinb0_2 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S1x1 : Shape := ⟨2, ![1, 1]⟩
abbrev S_ : Shape := ⟨0, ![]⟩
abbrev S16777216x1 : Shape := ⟨2, ![16777216, 1]⟩
abbrev S16777216 : Shape := ⟨1, ![16777216]⟩

abbrev nBuf : Space → Nat
  | .hbm => 15
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S1x1, .f32⟩
  | .hbm, ⟨2, _⟩ => ⟨S_, .f32⟩
  | .hbm, ⟨3, _⟩ => ⟨S16777216x1, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216x1, .f32⟩
  | .hbm, ⟨8, _⟩ => ⟨S16777216, .f32⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216x1, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S1x1_S_ : S1x1.ShapeCasts S_
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  slices_S16777216x2_S16777216x1_0_1 : S16777216x2.Slices ![0, 1] S16777216x1
  bcast_S16777216_S16777216x1_0 : S16777216.BroadcastsInDim S16777216x1 (![0] : Fin 1 → Fin S16777216x1.rank)

variable [Facts₀]

class Facts : Prop extends Facts₀ where

variable [Facts]
-- ==== Proof.Blend.lean ====
/-
  The specification: the two-term blend of each row.

  For an array `x` of 16777216 rows and 2 columns and a 1 × 1 array `w`, the result is the column whose
  entry at row `r` is

      x[r, 0] · w[0, 0] + x[r, 1] · (1 − w[0, 0]),

  read on the extended reals, where `1` is the value of the f32 word 0x3F800000. Both programs compute this
  column: the reference term by term, the kernel as a two-lane sum of the row times the pair (w, 1 − w).
  No law beyond the definition of a two-term sum is needed, so nothing here asks the entries to be finite.
-/
import Idealize.ShloMosaic.PureOps.Ideal
import Idealize.ShloMosaic.Lib.ValueIdx

noncomputable section

namespace Cert.Blend

open Idealize.ShloMosaic Idealize.ShloMosaic.ValueIdx

/-- The f32 word of 1.0, read at the extended reals (never evaluated: the same word stands on both sides). -/
abbrev one : EReal := Ideal.ofBits .f32 0x3F800000#32

/-- The one entry of the 1 × 1 weight array. -/
abbrev w00 (w : FVec Ideal ⟨2, ![1, 1]⟩ .f32) : EReal := w (ix2 (0 : Fin 1) (0 : Fin 1))

/-- Row `r` blended: `x[r,0] · w + x[r,1] · (1 − w)`. -/
def blendRow (x : FVec Ideal ⟨2, ![16777216, 2]⟩ .f32) (w : FVec Ideal ⟨2, ![1, 1]⟩ .f32) (r : Fin 16777216) : EReal :=
  x (ix2 r (0 : Fin 2)) * w00 w + x (ix2 r (1 : Fin 2)) * (one - w00 w)

/-- The result column: entry `(r, 0)` is row `r` blended. -/
def blend (x : FVec Ideal ⟨2, ![16777216, 2]⟩ .f32) (w : FVec Ideal ⟨2, ![1, 1]⟩ .f32) :
    FVec Ideal ⟨2, ![16777216, 1]⟩ .f32 :=
  fun i => blendRow x w (i 0)

end Cert.Blend

end
-- ==== Proof.RefBlend.lean ====
/-
  The reference computes the blend.

  The reference takes column 0 and column 1 of `x` as two vectors of length 16777216, multiplies the first by the
  weight `w[0,0]` spread over the vector and the second by `1 − w[0,0]` spread likewise, adds them, and hangs a unit
  axis on the sum. Read at entry `(r, 0)` each of these steps reads its operand at one entry, so the result there is
  `x[r,0] · w[0,0] + x[r,1] · (1 − w[0,0])`: row `r` blended.
-/
import proofs.«158302_j49400713838933_2_alg».proof.Proof.Gen.ReferenceIdeal.Read
import proofs.«158302_j49400713838933_2_alg».proof.Proof.Blend
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Blend

/-- The weight array reshaped to a scalar holds its one entry. -/
theorem scalar_weight (x1 : FVec Ideal S1x1 .f32) (i : S_.Idx) :
    val_main_v0 (F := Ideal) x1 i = w00 x1 := by
  unfold val_main_v0
  exact shapeCast_apply x1 shapeCasts_S1x1_S_ i (ix2 (0 : Fin 1) (0 : Fin 1)) rfl

/-- Column 0 of `x` as a vector, at `r`. -/
theorem col0 (x0 : FVec Ideal S16777216x2 .f32) (i : S16777216.Idx) :
    val_main_v2 (F := Ideal) x0 i = x0 (ix2 (i 0) (0 : Fin 2)) := by
  rw [val_main_v2_apply, val_main_v1_apply]
  refine congrArg x0 (funext fun a => Fin.ext ?_)
  match a with
  | ⟨0, _⟩ => show (i 0).val / 1 = (i 0).val; omega
  | ⟨1, _⟩ => rfl

/-- Column 1 of `x` as a vector, at `r`. -/
theorem col1 (x0 : FVec Ideal S16777216x2 .f32) (i : S16777216.Idx) :
    val_main_v6 (F := Ideal) x0 i = x0 (ix2 (i 0) (1 : Fin 2)) := by
  rw [val_main_v6_apply, val_main_v5_apply]
  refine congrArg x0 (funext fun a => Fin.ext ?_)
  match a with
  | ⟨0, _⟩ => show (i 0).val / 1 = (i 0).val; omega
  | ⟨1, _⟩ => rfl

/-- The reference's result is the blend of its two arguments. -/
theorem ref_eq_blend (x0 : FVec Ideal S16777216x2 .f32) (x1 : FVec Ideal S1x1 .f32) :
    val_main_v11 (F := Ideal) x0 x1 = blend x0 x1 := by
  funext i
  rw [val_main_v11_apply, val_main_v10_apply, val_main_v4_apply, val_main_v9_apply, col0, col1,
    val_main_v3_apply, val_main_v8_apply, val_main_v7_apply, val_main_cst_apply, scalar_weight]
  rfl

end Cert.ReferenceIdeal.RefValue

end
-- ==== Proof.RowPair.lean ====
/-
  What the kernel's body leaves in its output block.

  At one grid point the body holds an 8192 × 2 block `X` of the input and the 1 × 2 pair `p`. It multiplies every row
  of `X` by the pair, entry by entry, sums the two lanes of each row starting from the zero word, and hangs a unit
  axis on the column of sums. So the block's entry at `(r, 0)` is the two-term sum

      X[r, 0] · p[0, 0] + X[r, 1] · p[0, 1].

  A sum over a two-element axis is the sum of its two terms; nothing else about the extended reals is used.
-/
import proofs.«158302_j49400713838933_2_alg».proof.Proof.Gen.KernelIdeal.Value
import Idealize.ShloMosaic.PureOps.Ideal.Laws
import Idealize.ShloMosaic.Lib.ValueIdx
import Idealize.ShloMosaic.Lib.ValueLayout

noncomputable section

namespace Cert.KernelIdeal.BlockValue

open Cert.KernelIdeal Cert.KernelIdeal.Gen Idealize.ShloMosaic Idealize.ShloMosaic.ValueIdx

/-- The index the lane sum inserts on axis 1 under row `r`: lane `k` of row `r`. -/
theorem lift_lane (r : Fin 8192) (k : Fin 2) :
    reduces_S8192x2_S8192.lift (ix1 r) k = ix2 r k :=
  funext fun a => Fin.ext (by match a with | ⟨0, _⟩ => rfl | ⟨1, _⟩ => rfl)

/-- A sum over the two lanes of an 8192 × 2 array, from the zero word, read at row `r`: the two entries added. -/
theorem lane_sum (v : FVec Ideal S8192x2 .f32) (hacc : (0x00000000#32 : BitVec 32) = 0x00000000#32) (r : Fin 8192) :
    multiReduction .add [1] S8192 v 0x00000000#32 reduces_S8192x2_S8192 (.inl rfl) hacc (ix1 r)
      = v (ix2 r (0 : Fin 2)) + v (ix2 r (1 : Fin 2)) := by
  refine (Ideal.multiReduction_add_single v 0x00000000#32 reduces_S8192x2_S8192 (.inl rfl) hacc (ix1 r)).trans ?_
  show ∑ k : Fin 2, v (reduces_S8192x2_S8192.lift (ix1 r) k) = _
  rw [Fin.sum_univ_two, lift_lane, lift_lane]

/-- The pair spread over the rows, at `(r, k)`: the pair's entry `k`. -/
theorem pair_rows (p : FVec Ideal S1x2 .f32) (r : Fin 8192) (k : Fin 2) :
    broadcastTo S8192x2 (shapeCast S1x2 p shapeCasts_S1x2_S1x2) broadcasts_S1x2_S8192x2 (ix2 r k)
      = p (ix2 (0 : Fin 1) k) := by
  rw [shapeCast_self]
  exact broadcastTo_1b_ab_apply p broadcasts_S1x2_S8192x2 r k

/-- The output block at `(r, 0)`: the row of `X` times the pair, its two lanes added. -/
theorem block_entry (X : FVec Ideal S8192x2 .f32) (p : FVec Ideal S1x2 .f32) (r : Fin 8192) (z : Fin 1) :
    Value.E2 (F := Ideal) X p (ix2 r z)
      = X (ix2 r (0 : Fin 2)) * p (ix2 (0 : Fin 1) (0 : Fin 2)) + X (ix2 r (1 : Fin 2)) * p (ix2 (0 : Fin 1) (1 : Fin 2)) := by
  show multiReduction .add [1] S8192 (mulf X (broadcastTo S8192x2 (shapeCast S1x2 p shapeCasts_S1x2_S1x2) broadcasts_S1x2_S8192x2))
      0x00000000#32 reduces_S8192x2_S8192 (.inl rfl) rfl (Value.ix2_0 (ix2 r z)) = _
  have e : Value.ix2_0 (ix2 r z) = ix1 r := funext fun a => Fin.ext (by match a with | ⟨0, _⟩ => rfl)
  rw [e]
  refine (lane_sum _ rfl r).trans ?_
  rw [mulf_apply, mulf_apply, pair_rows, pair_rows]

/-- Offsets `(0, 0)` are the zero offsets: each of the body's loads and its store go through the whole buffer. -/
theorem zero_offsets : (![0, 0] : Fin 2 → Nat) = fun _ => 0 := funext fun a => by fin_cases a <;> rfl

/-- What the body leaves in the output buffer from an input block `X` and the pair `p`, at `(r, 0)`: the body loads
    both buffers whole and stores once through the whole output buffer, so this is the block entry above. -/
theorem out_entry (X : Vec Ideal S8192x2 .f32) (p : Vec Ideal S1x2 .f32) (r : Fin 8192) (z : Fin 1) :
    out0_2 (F := Ideal) X p (ix2 r z)
      = X (ix2 r (0 : Fin 2)) * p (ix2 (0 : Fin 1) (0 : Fin 2)) + X (ix2 r (1 : Fin 2)) * p (ix2 (0 : Fin 1) (1 : Fin 2)) := by
  unfold out0_2
  rw [View.ld_unit_zero (S := S8192x2) zero_offsets, View.ld_unit_zero (S := S1x2) zero_offsets, Value.canon2_eq]
  exact block_entry X p r z

end Cert.KernelIdeal.BlockValue

end
-- ==== Proof.Pair.lean ====
/-
  The pair the kernel multiplies each row by.

  Before the kernel is launched the program builds, from the 1 × 1 weight array `w`, the 1 × 2 array obtained by
  putting `w` and `1 − w` side by side (the `1` a scalar constant spread to 1 × 1). The kernel's second operand is
  that array, so what the region finds there is

      pair[0, 0] = w[0, 0],     pair[0, 1] = 1 − w[0, 0].
-/
import proofs.«158302_j49400713838933_2_alg».proof.Proof.Gen.KernelIdeal.Frame
import proofs.«158302_j49400713838933_2_alg».proof.Proof.Blend
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.ValueIdx Cert.Blend

/-- `w` and `1 − w` side by side along axis 1. -/
def pairOf (w : FVec Ideal S1x1 .f32) : FVec Ideal S1x2 .f32 :=
  concatenate S1x2 1
    [⟨S1x1, w⟩, ⟨S1x1, subf (broadcastInDim S1x1 ![] bcast_S_S1x1 (constant (F := Ideal) S_ .f32 0x3F800000#32)) w⟩]
    concatenates_S1x1_S1x1_S1x2_d1

/-- Its left entry is the weight. -/
theorem pairOf_left (w : FVec Ideal S1x1 .f32) : pairOf w (ix2 (0 : Fin 1) (0 : Fin 2)) = w00 w := by
  unfold pairOf
  exact concatenate_pair_apply_left (t := S1x2) (s₁ := S1x1) (s₂ := S1x1) (1 : Fin 2) _ _ concatenates_S1x1_S1x1_S1x2_d1 (ix2 (0 : Fin 1) (0 : Fin 2)) rfl
    (ix2 (0 : Fin 1) (0 : Fin 1)) (fun b => by match b with | ⟨0, _⟩ => rfl | ⟨1, _⟩ => rfl)

/-- Its right entry is one less the weight. -/
theorem pairOf_right (w : FVec Ideal S1x1 .f32) : pairOf w (ix2 (0 : Fin 1) (1 : Fin 2)) = one - w00 w := by
  unfold pairOf
  refine (concatenate_pair_apply_right (t := S1x2) (s₁ := S1x1) (s₂ := S1x1) (1 : Fin 2) _ _ concatenates_S1x1_S1x1_S1x2_d1 (ix2 (0 : Fin 1) (1 : Fin 2)) rfl rfl
    (ix2 (0 : Fin 1) (0 : Fin 1)) (fun b hb => by match b with | ⟨0, _⟩ => rfl | ⟨1, _⟩ => exact absurd rfl hb) rfl).trans ?_
  rw [subf_apply]
  refine congrArg (· - w00 w) ?_
  exact broadcastInDim_apply _ bcast_S_S1x1 _ (ix2 (0 : Fin 1) (0 : Fin 1)) ix0 (fun a => a.elim0)

variable (m : (ℓ : Loc nD τ sig) → Buf (Elt Ideal) ℓ)

/-- What the region finds in its second operand's array: the pair of the launch weight. -/
theorem found_pair (c : Dev nD) :
    (V m c main_v2 : S1x2.Idx → EReal) = pairOf (m ((c : Thread nD τ).loc main_arg1)) := by
  dsimp only [V, hostOps0]
  after_results
  rfl

end Cert.KernelIdeal.HostValue

end
-- ==== Proof.Column.lean ====
/-
  From the blocks to the whole column.

  The grid has 2048 points. Point `t` reads rows `8192·t … 8192·t + 8191` of the input (both columns), reads the
  whole pair, and writes rows `8192·t … 8192·t + 8191` of the output column. By the block entry, what it writes at
  block row `r` is `x[8192·t + r, 0] · pair[0,0] + x[8192·t + r, 1] · pair[0,1]`, and the pair found at launch is
  `(w, 1 − w)`: that is the blend of row `8192·t + r`. So every point writes back the block of ONE column, the blend of
  the arguments; the 2048 blocks cover the 16777216 rows (row `q` lies in block `q / 8192`), hence after the run the
  output array is the blend.
-/
import proofs.«158302_j49400713838933_2_alg».proof.Proof.Gen.KernelIdeal.Value
import proofs.«158302_j49400713838933_2_alg».proof.Proof.Blend
import proofs.«158302_j49400713838933_2_alg».proof.Proof.RowPair
import proofs.«158302_j49400713838933_2_alg».proof.Proof.Pair

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Blend

variable (m : (ℓ : Loc nD τ sig) → Buf (Elt Ideal) ℓ) (ρ : Dev nD → PrngReg)

/-- The block indices over the grid: the input's and the output's row-block index is the point's position, every
    other block index is zero (decided over the 2048 points). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t`, entry `(r, k)`: the launch array at row `8192·t + r`, column `k`. -/
theorem input_block (c : Dev nD) (t : Fin cfg0.N) (r : Fin 8192) (k : Fin 2) (q : Fin 16777216)
    (hq : q.val = t.val * 8192 + r.val) :
    iblk m c 0 t (ix2 r k) = m ((c : Thread nD τ).loc main_arg0) (ix2 q k) := by
  obtain ⟨e0, e1, -⟩ := block_indices t
  unfold iblk
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 8192 + 1 * r.val = q.val; omega
  | ⟨1, _⟩ => show win0_0.index t (1 : Fin 2) * 2 + 1 * k.val = k.val; omega

/-- The pair's block at any point is the whole pair as the region finds it. -/
theorem pair_block (c : Dev nD) (t : Fin cfg0.N) (k : Fin 2) :
    iblk m c 1 t (ix2 (0 : Fin 1) k) = V m c main_v2 (ix2 (0 : Fin 1) k) := by
  obtain ⟨-, -, e2, e3, -⟩ := block_indices t
  unfold iblk
  show V m c main_v2 (((cfg0.win 1).blk t).view.emb (ix2 (0 : Fin 1) k)) = _
  refine congrArg (V m c main_v2) (funext fun a => Fin.ext ?_)
  match a with
  | ⟨0, _⟩ => show win0_1.index t (0 : Fin 2) * 1 + 1 * 0 = 0; omega
  | ⟨1, _⟩ => show win0_1.index t (1 : Fin 2) * 2 + 1 * k.val = k.val; omega

/-- The array row under block row `y 0` of point `t`'s output block. -/
theorem output_row (t : Fin cfg0.N) (y : S8192x1.Idx) :
    ((((cfg0.win 2).blk t).view.emb y) 0).val = t.val * 8192 + (y 0).val := by
  obtain ⟨-, -, -, -, e4, -⟩ := block_indices t
  show win0_2.index t (0 : Fin 2) * 8192 + 1 * (y 0).val = _
  omega

/-- WHAT POINT `t` WRITES BACK is block `t` of the blend of the launch arguments. -/
theorem flushed_blend (c : Dev nD) (t : Fin cfg0.N) :
    (dats m 0 c).flushed 2 t = ((cfg0.win 2).blk t).view.read (Elt Ideal)
      (blend (m ((c : Thread nD τ).loc main_arg0)) (m ((c : Thread nD τ).loc main_arg1))) := by
  show (cfg0.win 2).cut (grid0.coords t) ((dats m 0 c).after 2 t) = _
  rw [after0_2]
  funext y
  show out0_2 (iblk m c 0 t) (iblk m c 1 t) y
    = blendRow (m ((c : Thread nD τ).loc main_arg0)) (m ((c : Thread nD τ).loc main_arg1)) ((((cfg0.win 2).blk t).view.emb y) 0)
  refine (congrArg (out0_2 (iblk m c 0 t) (iblk m c 1 t)) (eq_ix2 y)).trans ?_
  refine (BlockValue.out_entry (iblk m c 0 t) (iblk m c 1 t) (y 0) (y 1)).trans ?_
  rw [input_block m c t (y 0) 0 _ (output_row t y), input_block m c t (y 0) 1 _ (output_row t y),
    pair_block, pair_block, HostValue.found_pair, HostValue.pairOf_left, HostValue.pairOf_right]
  rfl

/-- An index of the output array is in point `t`'s block iff each coordinate is in the block's range on its axis. -/
theorem mem_block (t : Fin cfg0.N) (i : S16777216x1.Idx) :
    i ∈ ((cfg0.win 2).blk t).view.set ↔ ∀ a : Fin 2, win0_2.index t a * S8192x1.size a ≤ (i a).val
      ∧ (i a).val < win0_2.index t a * S8192x1.size a + S8192x1.size a := by
  show i ∈ ((View.whole main_v3).slice (win0_2.rect t)).set ↔ _
  rw [View.set_slice_whole, Rect.mem_set_unit]
  exact Iff.rfl

/-- Every row of the output column is in some point's block: row `q` in block `q / 8192`. -/
theorem blocks_cover (i : S16777216x1.Idx) :
    ∃ t : Fin cfg0.N, (cfg0.win 2).flush t = true ∧ i ∈ ((cfg0.win 2).blk t).view.set := by
  have hi0 : (i 0).val < 16777216 := (i 0).isLt
  have hi1 : (i 1).val < 1 := (i 1).isLt
  have hN : cfg0.N = 2048 := N_0
  let t : Fin cfg0.N := ⟨(i 0).val / 8192, by rw [hN]; omega⟩
  obtain ⟨-, -, -, -, e4, e5⟩ := block_indices t
  have ht : t.val = (i 0).val / 8192 := rfl
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 1 ≤ (i 1).val ∧ (i 1).val < win0_2.index t (1 : Fin 2) * 1 + 1; omega

/-- THE OUTPUT ARRAY after the run is the blend of the launch arguments. -/
theorem column (c : Dev nD) :
    (dats m 0 c).arrAt 2 cfg0.N
      = blend (m ((c : Thread nD τ).loc main_arg0)) (m ((c : Thread nD τ).loc main_arg1)) :=
  (dats m 0 c).arrAt_eq_of_cover 2 _ (fun t _ => flushed_blend m c t) blocks_cover

/-- The kernel's run: every weakly fair execution ends with the output array at the blend and the arguments kept. -/
theorem run : θ_run defs (onTc (τ := τ) (main (F := Ideal))) ⟨m, fun _ => 0, ρ⟩ fun r => ∀ c : Dev nD,
      r.2.mem ((c : Thread nD τ).loc main_v3)
        = blend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (column m c), (h c).2⟩) (Value.run_blocks m ρ)

end Cert.KernelIdeal.ArrayValue

end
-- ==== Proof.lean ====
/-
  A two-term blend of the rows of a 16777216 × 2 array, tiled over 2048 grid points, against its one-line reference.

  The reference: `out[r, 0] = x[r, 0] · w + x[r, 1] · (1 − w)` with `w = weight[0, 0]`.
  The kernel: the program first lays `w` and `1 − w` side by side as a 1 × 2 pair; grid point `t` then takes rows
  `8192·t … 8192·t + 8191` of `x`, multiplies each row by the pair entry by entry, adds the two lanes of the row (from
  the zero word) and writes the 8192 sums to the same rows of the output column.

  On the extended reals a sum over a two-element axis is the sum of its two terms, so the kernel's entry at row `r`
  is `x[r,0] · w + x[r,1] · (1 − w)` — the reference's, with the same word for `1` on both sides. No distributivity
  or cancellation is used, hence the finiteness of the inputs is never opened.

  * `Blend`: the specification, the blended column as one function of the two argument arrays.
  * `RefBlend`: the reference's result is that function (each of its steps read at an entry).
  * `RowPair`: the body's output block at an entry is the row times the pair, two lanes added.
  * `Pair`: the pair the region finds is `(w, 1 − w)`.
  * `Column`: each grid point writes back a block of the blend, and the blocks cover the column.

  The three frames: the two kernel programs' are the generated frame run; the reference's is its generated run with
  the result forgotten. The kernel's idealization rewrote nothing, so `preserves` is `True`.
-/
import proofs.«158302_j49400713838933_2_alg».proof.Defs
import proofs.«158302_j49400713838933_2_alg».proof.Proof.Gen.Kernel
import proofs.«158302_j49400713838933_2_alg».proof.Proof.Gen.Kernel.Frame
import proofs.«158302_j49400713838933_2_alg».proof.Proof.Gen.KernelIdeal
import proofs.«158302_j49400713838933_2_alg».proof.Proof.Gen.KernelIdeal.Frame
import proofs.«158302_j49400713838933_2_alg».proof.Proof.Gen.KernelIdeal.Value
import proofs.«158302_j49400713838933_2_alg».proof.Proof.Gen.ReferenceIdeal
import proofs.«158302_j49400713838933_2_alg».proof.Proof.Gen.ReferenceIdeal.Run
import proofs.«158302_j49400713838933_2_alg».proof.Proof.Gen.ReferenceIdeal.Read
import proofs.«158302_j49400713838933_2_alg».proof.Proof.Gen.Pre_finite_inputs
import proofs.«158302_j49400713838933_2_alg».proof.Proof.Blend
import proofs.«158302_j49400713838933_2_alg».proof.Proof.RefBlend
import proofs.«158302_j49400713838933_2_alg».proof.Proof.Column
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and `weight` both programs end with the blended column: the kernel block by block,
    the reference entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_blend, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
